-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S128x64 : Shape := ⟨2, ![128, 64]⟩
abbrev S128 : Shape := ⟨1, ![128]⟩
abbrev S64x128 : Shape := ⟨2, ![64, 128]⟩
abbrev S64 : Shape := ⟨1, ![64]⟩
abbrev S2x1600000 : Shape := ⟨2, ![2, 1600000]⟩
abbrev S2x200000 : Shape := ⟨2, ![2, 200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x128 .f32) (main_arg5 : FVec F S64x128 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : FVec F S128x64 .f32) (main_arg2 : FVec F S128x64 .f32) (main_arg3 : FVec F S128 .f32) (main_arg4 : FVec F S64x128 .f32) (main_arg5 : FVec F S64x128 .f32) (main_arg6 : FVec F S64 .f32) (main_arg7 : IVec S2x1600000 32) (main_arg8 : IVec S2x200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S100000x64 : Shape := ⟨2, ![100000, 64]⟩
abbrev S128x64 : Shape := ⟨2, ![128, 64]⟩
abbrev S128 : Shape := ⟨1, ![128]⟩
abbrev S64x128 : Shape := ⟨2, ![64, 128]⟩
abbrev S64 : Shape := ⟨1, ![64]⟩
abbrev S2x1600000 : Shape := ⟨2, ![2, 1600000]⟩
abbrev S2x200000 : Shape := ⟨2, ![2, 200000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S10000x64 : Shape := ⟨2, ![10000, 64]⟩
abbrev S10000x1 : Shape := ⟨2, ![10000, 1]⟩
abbrev S10000 : Shape := ⟨1, ![10000]⟩

abbrev nBuf : Space → Nat
  | .hbm => 88
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S128x64, .f32⟩
  | .hbm, ⟨2, _⟩ => ⟨S128x64, .f32⟩
  | .hbm, ⟨3, _⟩ => ⟨S128, .f32⟩
  | .hbm, ⟨4, _⟩ => ⟨S64x128, .f32⟩
  | .hbm, ⟨5, _⟩ => ⟨S64x128, .f32⟩
  | .hbm, ⟨6, _⟩ => ⟨S64, .f32⟩
  | .hbm, ⟨7, _⟩ => ⟨S2x1600000, .i32⟩
  | .hbm, ⟨8, _⟩ => ⟨S2x200000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S64x128, .f32⟩
  | .hbm, ⟨42, _⟩ => ⟨S64x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S128x64, .f32⟩
  | .hbm, ⟨61, _⟩ => ⟨S128x64, .f32⟩
  | .hbm, ⟨62, _⟩ => ⟨S1x64, .f32⟩
  | .hbm, ⟨63, _⟩ => ⟨S100000x64, .f32⟩
  | .hbm, ⟨64, _⟩ => ⟨S1x200000, .i32⟩
  | .hbm, ⟨65, _⟩ => ⟨S200000, .i32⟩
  | .hbm, ⟨66, _⟩ => ⟨S_, .i32⟩
  | .hbm, ⟨67, _⟩ => ⟨S200000, .i32⟩
  | .hbm, ⟨68, _⟩ => ⟨S200000, .i1⟩
  | .hbm, ⟨69, _⟩ => ⟨S_, .i32⟩
  | .hbm, ⟨70, _⟩ => ⟨S200000, .i32⟩
  | .hbm, ⟨71, _⟩ => ⟨S200000, .i32⟩
  | .hbm, ⟨72, _⟩ => ⟨S200000, .i32⟩
  | .hbm, ⟨73, _⟩ => ⟨S200000x1, .i32⟩
  | .hbm, ⟨74, _⟩ => ⟨S200000x64, .f32⟩
  | .hbm, ⟨75, _⟩ => ⟨S1x200000, .i32⟩
  | .hbm, ⟨76, _⟩ => ⟨S200000, .i32⟩
  | .hbm, ⟨77, _⟩ => ⟨S_, .i32⟩
  | .hbm, ⟨78, _⟩ => ⟨S200000, .i32⟩
  | .hbm, ⟨79, _⟩ => ⟨S200000, .i1⟩
  | .hbm, ⟨80, _⟩ => ⟨S_, .i32⟩
  | .hbm, ⟨81, _⟩ => ⟨S200000, .i32⟩
  | .hbm, ⟨82, _⟩ => ⟨S200000, .i32⟩
  | .hbm, ⟨83, _⟩ => ⟨S200000, .i32⟩
  | .hbm, ⟨84, _⟩ => ⟨S200000x1, .i32⟩
  | .hbm, ⟨85, _⟩ => ⟨S200000x64, .f32⟩
  | .hbm, ⟨86, _⟩ => ⟨S200000x1, .f32⟩
  | .hbm, ⟨87, _⟩ => ⟨S200000, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x1, .f32⟩
  | .local _ .vmem, ⟨23, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_8 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_10 : Ref sig .tc := ⟨.hbm, 77, rfl⟩
abbrev main_v56 : Ref sig .tc := ⟨.hbm, 78, rfl⟩
abbrev main_v57 : Ref sig .tc := ⟨.hbm, 79, rfl⟩
abbrev main_c_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S128x64_S64x128_1_0 : S128x64.Transposes [1, 0] S64x128
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S10000 : S10000x64.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S200000x1_S200000 : S200000x1.ShapeCasts S200000
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S200000x1_S200000x64_1_0_n_n_0_1_164_wf : GatherDims.WF S100000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S200000x64.size a
  hwx2_0 : ∀ i : grid2.Coords, EltTy.bits .f32 = 32 ∨ (Rect.block (s := S200000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S200000x64.size a
  hwx2_1 : ∀ i : grid2.Coords, EltTy.bits .f32 = 32 ∨ (Rect.block (s := S200000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S200000x1.size a
  hwx2_2 : ∀ i : grid2.Coords, EltTy.bits .f32 = 32 ∨ (Rect.block (s := S200000x1) S10000x1.size (cc2_transform_2 i) (hinb2_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S128x64 : Shape := ⟨2, ![128, 64]⟩
abbrev S128 : Shape := ⟨1, ![128]⟩
abbrev S64x128 : Shape := ⟨2, ![64, 128]⟩
abbrev S64 : Shape := ⟨1, ![64]⟩
abbrev S2x1600000 : Shape := ⟨2, ![2, 1600000]⟩
abbrev S2x200000 : Shape := ⟨2, ![2, 200000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 101
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S128x64, .f32⟩
  | .hbm, ⟨2, _⟩ => ⟨S128x64, .f32⟩
  | .hbm, ⟨3, _⟩ => ⟨S128, .f32⟩
  | .hbm, ⟨4, _⟩ => ⟨S64x128, .f32⟩
  | .hbm, ⟨5, _⟩ => ⟨S64x128, .f32⟩
  | .hbm, ⟨6, _⟩ => ⟨S64, .f32⟩
  | .hbm, ⟨7, _⟩ => ⟨S2x1600000, .i32⟩
  | .hbm, ⟨8, _⟩ => ⟨S2x200000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S64x128, .f32⟩
  | .hbm, ⟨42, _⟩ => ⟨S100000x128, .f32⟩
  | .hbm, ⟨43, _⟩ => ⟨S64x128, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S128x64, .f32⟩
  | .hbm, ⟨69, _⟩ => ⟨S100000x64, .f32⟩
  | .hbm, ⟨70, _⟩ => ⟨S128x64, .f32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S1x200000, .i32⟩
  | .hbm, ⟨77, _⟩ => ⟨S200000, .i32⟩
  | .hbm, ⟨78, _⟩ => ⟨S_, .i32⟩
  | .hbm, ⟨79, _⟩ => ⟨S200000, .i32⟩
  | .hbm, ⟨80, _⟩ => ⟨S200000, .i1⟩
  | .hbm, ⟨81, _⟩ => ⟨S_, .i32⟩
  | .hbm, ⟨82, _⟩ => ⟨S200000, .i32⟩
  | .hbm, ⟨83, _⟩ => ⟨S200000, .i32⟩
  | .hbm, ⟨84, _⟩ => ⟨S200000, .i32⟩
  | .hbm, ⟨85, _⟩ => ⟨S200000x1, .i32⟩
  | .hbm, ⟨86, _⟩ => ⟨S200000x64, .f32⟩
  | .hbm, ⟨87, _⟩ => ⟨S1x200000, .i32⟩
  | .hbm, ⟨88, _⟩ => ⟨S200000, .i32⟩
  | .hbm, ⟨89, _⟩ => ⟨S_, .i32⟩
  | .hbm, ⟨90, _⟩ => ⟨S200000, .i32⟩
  | .hbm, ⟨91, _⟩ => ⟨S200000, .i1⟩
  | .hbm, ⟨92, _⟩ => ⟨S_, .i32⟩
  | .hbm, ⟨93, _⟩ => ⟨S200000, .i32⟩
  | .hbm, ⟨94, _⟩ => ⟨S200000, .i32⟩
  | .hbm, ⟨95, _⟩ => ⟨S200000, .i32⟩
  | .hbm, ⟨96, _⟩ => ⟨S200000x1, .i32⟩
  | .hbm, ⟨97, _⟩ => ⟨S200000x64, .f32⟩
  | .hbm, ⟨98, _⟩ => ⟨S200000x64, .f32⟩
  | .hbm, ⟨99, _⟩ => ⟨S_, .f32⟩
  | .hbm, ⟨100, _⟩ => ⟨S200000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_cst : Ref sig .tc := ⟨.hbm, 49, rfl⟩
abbrev main_call0_v0 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_8 : Ref sig .tc := ⟨.hbm, 78, rfl⟩
abbrev main_v57 : Ref sig .tc := ⟨.hbm, 79, rfl⟩
abbrev main_v58 : Ref sig .tc := ⟨.hbm, 80, rfl⟩
abbrev main_c_9 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_10 : Ref sig .tc := ⟨.hbm, 89, rfl⟩
abbrev main_v66 : Ref sig .tc := ⟨.hbm, 90, rfl⟩
abbrev main_v67 : Ref sig .tc := ⟨.hbm, 91, rfl⟩
abbrev main_c_11 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_12 : Ref sig .tc := ⟨.hbm, 99, rfl⟩
abbrev main_v74 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x64_S200000_d1 : S200000x64.ReducesTo [1] S200000
  h_S_ : 0 < S_.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S200000x1_S200000x64_1_0_n_n_0_1_164_wf : GatherDims.WF S100000x64 S200000x1 S200000x64 [1] [0] [] [0] [] 1 ![1, 64]

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

class Facts : Prop extends Facts₀ where

variable [Facts]
-- ==== Proof.ValueRun.lean ====
/-
  The idealized kernel's run, with its result named.

  The program is three grid regions among stretches of host operations. Its run is read as a fold of buffer
  contents through those seven segments: a host stretch applies its operations to the contents it finds, and a
  region leaves each of its arrays at what its write-backs made of it and every other buffer as it found it.
  The last boundary's contents therefore name every buffer at the end of the run, the result buffer among them.
  Here the run is stated with the result buffer read off that last boundary, beside the unchanged arguments.
-/
import proofs.«132308_j19078244729525_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents of it, and the argument arrays end as launched. -/
theorem run_last : θ_run defs (onTc (τ := τ) (main (F := F))) ⟨m, fun _ => 0, ρ⟩ (fun r => ∀ c : Dev nD,
      r.2.mem ((c.tc : Thread nD τ).loc main_v64) = W7 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v64 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.Hand

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.SageSpec.lean ====
/-
  Two layers of neighbourhood averaging followed by a pairwise score, as formulas on the extended reals.

  One layer takes, for every node r, the averaged neighbour features A(r, ·) and the node's own features X(r, ·),
  multiplies each by its weight matrix, adds the two products and a bias:

      layer(r, c) = (∑ₖ A(r, k) · WL(k, c) + ∑ₖ X(r, k) · WR(k, c)) + b(c).

  The score of a pair of feature rows is their inner product, scoreAt(r) = ∑ₖ P(r, k) · Q(r, k).
  Both are stated over arrays of any extents, entry by entry, and both depend on the arrays only through the entries
  they name: that is what lets a row block of the arrays stand for the rows it holds.
-/
import Idealize.ShloMosaic.Lib.ValueIdx
import Idealize.ShloMosaic.PureOps.Ideal

noncomputable section

open scoped BigOperators

namespace Cert.Sage

open Idealize.ShloMosaic Idealize.ShloMosaic.ValueIdx

/-- One layer before its activation, at node `r` and output feature `c`. -/
def layerAt {n d e : Nat} (A X : (⟨2, ![n, d]⟩ : Shape).Idx → EReal) (WL WR : (⟨2, ![d, e]⟩ : Shape).Idx → EReal)
    (b : Fin e → EReal) (r : Fin n) (c : Fin e) : EReal :=
  (∑ k : Fin d, A (ix2 r k) * WL (ix2 k c) + ∑ k : Fin d, X (ix2 r k) * WR (ix2 k c)) + b c

/-- The layer at an entry reads row `r` of the two feature arrays, column `c` of the two weight matrices and entry `c`
    of the bias, and nothing else: arrays that agree there give the same value, whatever their extents. -/
theorem layerAt_congr {n n' d e : Nat}
    {A X : (⟨2, ![n, d]⟩ : Shape).Idx → EReal} {A' X' : (⟨2, ![n', d]⟩ : Shape).Idx → EReal}
    {WL WR WL' WR' : (⟨2, ![d, e]⟩ : Shape).Idx → EReal} {b b' : Fin e → EReal}
    {r : Fin n} {r' : Fin n'} {c c' : Fin e}
    (hA : ∀ k, A (ix2 r k) = A' (ix2 r' k)) (hX : ∀ k, X (ix2 r k) = X' (ix2 r' k))
    (hL : ∀ k, WL (ix2 k c) = WL' (ix2 k c')) (hR : ∀ k, WR (ix2 k c) = WR' (ix2 k c')) (hb : b c = b' c') :
    layerAt A X WL WR b r c = layerAt A' X' WL' WR' b' r' c' := by
  unfold layerAt
  simp only [hA, hX, hL, hR, hb]

/-- The score of row `r`: the inner product of the two feature rows. -/
def scoreAt {n d : Nat} (P Q : (⟨2, ![n, d]⟩ : Shape).Idx → EReal) (r : Fin n) : EReal :=
  ∑ k : Fin d, P (ix2 r k) * Q (ix2 r k)

/-- The score at a row reads that row of the two arrays only. -/
theorem scoreAt_congr {n n' d : Nat} {P Q : (⟨2, ![n, d]⟩ : Shape).Idx → EReal} {P' Q' : (⟨2, ![n', d]⟩ : Shape).Idx → EReal}
    {r : Fin n} {r' : Fin n'} (hP : ∀ k, P (ix2 r k) = P' (ix2 r' k)) (hQ : ∀ k, Q (ix2 r k) = Q' (ix2 r' k)) :
    scoreAt P Q r = scoreAt P' Q' r' := by
  unfold scoreAt
  simp only [hP, hQ]

end Cert.Sage

end
-- ==== Proof.Payload.lean ====
/-
  The three kernel bodies at an entry of their output block, as the layer and score formulas of the blocks they load.

  The two layer bodies compute, on a block of rows, the product of the averaged-neighbour block with its weight matrix
  plus the product of the node block with its weight matrix (each a matrix product accumulated from zero, its operands
  narrowed to a shorter float format first, which on extended reals changes nothing), plus the bias row broadcast down
  the rows; the first layer then takes the maximum with zero. The scoring body multiplies two blocks entry by entry and
  sums each row, keeping the sums as a column.
-/
import proofs.«132308_j19078244729525_1_alg».proof.Proof.Gen.KernelIdeal.Skeleton
import proofs.«132308_j19078244729525_1_alg».proof.Proof.LibPlainDot
import proofs.«132308_j19078244729525_1_alg».proof.Proof.LibKeepdims
import proofs.«132308_j19078244729525_1_alg».proof.Proof.SageSpec
import Idealize.ShloMosaic.Lib.ValueLayout

noncomputable section

namespace Cert.KernelIdeal.Hand

open Cert.KernelIdeal Cert.KernelIdeal.Gen Idealize.ShloMosaic Idealize.ShloMosaic.ValueIdx Cert.Sage

/-- The first layer's body at row `p`, feature `q` of its block: the layer formula of the loaded blocks, the bias read
    off the one bias row, under the maximum with zero. -/
theorem pay0_apply (v0 v3 : Vec Ideal S5000x64 .f32) (v5 v8 : Vec Ideal S64x128 .f32) (v14 : Vec Ideal S1x128 .f32)
    (p : Fin 5000) (q : Fin 128) :
    k0_pay1 (F := Ideal) v0 v3 v5 v8 v14 (ix2 p q)
      = max (layerAt v0 v3 v5 v8 (fun c => v14 (ix2 (0 : Fin 1) c)) p q) (Ideal.ofBits .f32 0x00000000#32) := by
  unfold k0_pay1 layerAt
  dsimp only
  rw [maximumf_apply, addf_apply, addf_apply, broadcast_apply]
  rw [PlainDot.matmul_zero_apply dot_S5000x64_S64x128_S5000x128_1_0_0_1_n_n rfl,
    PlainDot.matmul_zero_apply dot_S5000x64_S64x128_S5000x128_1_0_0_1_n_n rfl, broadcastTo_1b_ab_apply]
  simp only [truncf_apply, shapeCast_self]
  rfl

/-- The second layer's body at row `p`, feature `q` of its block: the layer formula, no activation. -/
theorem pay1_apply (v0 v3 : Vec Ideal S5000x128 .f32) (v6 v9 : Vec Ideal S128x64 .f32) (v15 : Vec Ideal S1x64 .f32)
    (p : Fin 5000) (q : Fin 64) :
    k1_pay1 (F := Ideal) v0 v3 v6 v9 v15 (ix2 p q)
      = layerAt v0 v3 v6 v9 (fun c => v15 (ix2 (0 : Fin 1) c)) p q := by
  unfold k1_pay1 layerAt
  dsimp only
  rw [addf_apply, addf_apply]
  rw [PlainDot.matmul_zero_apply dot_S5000x128_S128x64_S5000x64_1_0_0_1_n_n rfl,
    PlainDot.matmul_zero_apply dot_S5000x128_S128x64_S5000x64_1_0_0_1_n_n rfl, broadcastTo_1b_ab_apply]
  simp only [truncf_apply, shapeCast_self]

/-- The scoring body at row `p` of its one-column block: the inner product of row `p` of the two loaded blocks. -/
theorem pay2_apply (v0 v2 : Vec Ideal S10000x64 .f32) (p : Fin 10000) (u : Fin 1) :
    k2_pay1 (F := Ideal) v0 v2 (ix2 p u) = scoreAt v0 v2 p := by
  unfold k2_pay1 scoreAt
  dsimp only
  rw [shapeCast_a_a1_apply]
  refine (multiReduction_add_axis1_apply _ reduces_S10000x64_S10000 _ _ p).trans ?_
  simp only [mulf_apply, shapeCast_self]

end Cert.KernelIdeal.Hand

end
-- ==== Proof.RegionHidden.lean ====
/-
  The first layer's grid region: the array it leaves, as one function of the arrays it finds.

  The region visits twenty row blocks of 5000 nodes. At block t it loads rows 5000·t … 5000·t + 4999 of the averaged
  neighbour features and of the node features, the two whole weight matrices and the bias row, and writes rows
  5000·t … 5000·t + 4999 of the output. Row p of block t is node 5000·t + p, and the layer at a node reads only that
  node's rows, so every block is the restriction of one function of the whole arrays; the twenty blocks tile the
  100000 nodes, so the output array ends holding that function.
-/
import proofs.«132308_j19078244729525_1_alg».proof.Proof.Gen.KernelIdeal.Frame
import proofs.«132308_j19078244729525_1_alg».proof.Proof.Payload
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem Cert.Sage
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The hidden features: the first layer under the maximum with zero, node by node and feature by feature. -/
def hidden (A X : S100000x64.Idx → EReal) (WL WR : S64x128.Idx → EReal) (B : S1x128.Idx → EReal) :
    S100000x128.Idx → EReal :=
  fun i => max (layerAt A X WL WR (fun c => B (ix2 (0 : Fin 1) c)) (i 0) (i 1)) (Ideal.ofBits .f32 0x00000000#32)

/-- A block's entry is the hidden feature of the node and feature it stands for, once each loaded block holds the
    rows and columns of the whole arrays that the entry reads. -/
theorem block_hidden (x0 x1 : Vec Ideal S5000x64 .f32) (x2 x3 : Vec Ideal S64x128 .f32) (x4 : Vec Ideal S1x128 .f32)
    (A X : S100000x64.Idx → EReal) (WL WR : S64x128.Idx → EReal) (B : S1x128.Idx → EReal)
    (p : Fin 5000) (q : Fin 128) (i : S100000x128.Idx)
    (h0 : ∀ k : Fin 64, x0 (ix2 p k) = A (ix2 (i 0) k)) (h1 : ∀ k : Fin 64, x1 (ix2 p k) = X (ix2 (i 0) k))
    (h2 : ∀ k : Fin 64, x2 (ix2 k q) = WL (ix2 k (i 1))) (h3 : ∀ k : Fin 64, x3 (ix2 k q) = WR (ix2 k (i 1)))
    (h4 : x4 (ix2 (0 : Fin 1) q) = B (ix2 (0 : Fin 1) (i 1))) :
    k0_pay1 (F := Ideal) x0 x1 x2 x3 x4 (ix2 p q) = hidden A X WL WR B i := by
  refine (pay0_apply x0 x1 x2 x3 x4 p q).trans ?_
  unfold hidden
  exact congrArg (fun z => max z (Ideal.ofBits .f32 0x00000000#32)) (layerAt_congr h0 h1 h2 h3 h4)

/-- The block indices of the six windows at a grid point: the row-blocked ones move with the point, the weights and the
    bias stay at their one block. -/
theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the hidden features of the arrays the region finds. -/
theorem flushed_hidden (c : Dev nD) (t : Fin cfg0.N) :
    (dat0 V c).flushed 5 t = ((cfg0.win 5).blk t).view.read (Elt Ideal)
      (hidden (V c main_v24) (V c main_arg0) (V c main_v25) (V c main_v26) (V c main_v27)) := by
  show (cfg0.win 5).cut (grid0.coords t) ((dat0 V c).after 5 t) = _
  rw [after0_5]
  unfold out0_5
  rw [View.canon_unit_zero origin2]
  simp only [View.ld_unit_zero (S := S5000x64) origin2, View.ld_unit_zero (S := S64x128) origin2,
    View.ld_unit_zero (S := S1x128) origin2]
  obtain ⟨a00, a01, a10, a11, a20, a21, a30, a31, a40, a41, a50, a51⟩ := blockIdx0 t
  funext j
  obtain ⟨p, q, rfl⟩ : ∃ (p : Fin 5000) (q : Fin 128), j = ix2 p q := ⟨j 0, j 1, eq_ix2 j⟩
  refine block_hidden (iblk0 V c 0 t) (iblk0 V c 1 t) (iblk0 V c 2 t) (iblk0 V c 3 t) (iblk0 V c 4 t)
    (V c main_v24) (V c main_arg0) (V c main_v25) (V c main_v26) (V c main_v27) p q
    (((cfg0.win 5).blk t).view.emb (ix2 p q)) (fun k => ?_) (fun k => ?_) (fun k => ?_) (fun k => ?_) ?_
  · show V c main_v24 (((cfg0.win 0).blk t).view.emb (ix2 p k)) = V c main_v24 _
    refine congrArg (V c main_v24) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 64 + 1 * k.val = k.val; omega
  · show V c main_arg0 (((cfg0.win 1).blk t).view.emb (ix2 p k)) = V c main_arg0 _
    refine congrArg (V c main_arg0) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 64 + 1 * k.val = k.val; omega
  · show V c main_v25 (((cfg0.win 2).blk t).view.emb (ix2 k q)) = V c main_v25 _
    refine congrArg (V c main_v25) (funext fun a => Fin.ext ?_)
    match a with
    | ⟨0, _⟩ => show win0_2.index t (0 : Fin 2) * 64 + 1 * k.val = k.val; omega
    | ⟨1, _⟩ => show win0_2.index t (1 : Fin 2) * 128 + 1 * q.val = win0_5.index t (1 : Fin 2) * 128 + 1 * q.val; omega
  · show V c main_v26 (((cfg0.win 3).blk t).view.emb (ix2 k q)) = V c main_v26 _
    refine congrArg (V c main_v26) (funext fun a => Fin.ext ?_)
    match a with
    | ⟨0, _⟩ => show win0_3.index t (0 : Fin 2) * 64 + 1 * k.val = k.val; omega
    | ⟨1, _⟩ => show win0_3.index t (1 : Fin 2) * 128 + 1 * q.val = win0_5.index t (1 : Fin 2) * 128 + 1 * q.val; omega
  · show V c main_v27 (((cfg0.win 4).blk t).view.emb (ix2 (0 : Fin 1) q)) = V c main_v27 _
    refine congrArg (V c main_v27) (funext fun a => Fin.ext ?_)
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega

/-- The twenty row blocks tile the nodes, so the output array ends holding the hidden features. -/
theorem final_hidden (c : Dev nD) :
    (dat0 V c).arrAt 5 cfg0.N = hidden (V c main_v24) (V c main_arg0) (V c main_v25) (V c main_v26) (V c main_v27) :=
  (dat0 V c).arrAt_eq_of_cover 5 _ (fun t _ => flushed_hidden V c t) fun i => by
    have hN : grid0.N = 20 := N_0
    have hi0 : (i 0).val < 100000 := (i 0).isLt
    have hi1 : (i 1).val < 128 := (i 1).isLt
    have ht : (i 0).val / 5000 < cfg0.N := by show _ < grid0.N; omega
    obtain ⟨-, -, -, -, -, -, -, -, -, -, a50, a51⟩ := blockIdx0 ⟨(i 0).val / 5000, ht⟩
    refine ⟨⟨(i 0).val / 5000, ht⟩, flush0_5 _, ?_⟩
    show i ∈ ((View.whole main_v28).slice (win0_5.rect ⟨(i 0).val / 5000, ht⟩)).set
    rw [View.set_slice_whole, Rect.mem_set_unit]
    intro a
    match a with
    | ⟨0, _⟩ =>
      show win0_5.index ⟨(i 0).val / 5000, ht⟩ (0 : Fin 2) * 5000 ≤ (i 0).val
        ∧ (i 0).val < win0_5.index ⟨(i 0).val / 5000, ht⟩ (0 : Fin 2) * 5000 + 5000
      rw [a50]; show (i 0).val / 5000 * 5000 ≤ (i 0).val ∧ (i 0).val < (i 0).val / 5000 * 5000 + 5000; omega
    | ⟨1, _⟩ =>
      show win0_5.index ⟨(i 0).val / 5000, ht⟩ (1 : Fin 2) * 128 ≤ (i 1).val
        ∧ (i 1).val < win0_5.index ⟨(i 0).val / 5000, ht⟩ (1 : Fin 2) * 128 + 128
      rw [a51]; omega

end Cert.KernelIdeal.Hand

end
-- ==== Proof.RegionEmbed.lean ====
/-
  The second layer's grid region: the array it leaves, as one function of the arrays it finds.

  The same row blocking as the first layer, twenty blocks of 5000 nodes, on 128 input features and 64 output features,
  and no activation: every block is the restriction of the layer formula of the whole arrays, and the blocks tile
  the nodes.
-/
import proofs.«132308_j19078244729525_1_alg».proof.Proof.Gen.KernelIdeal.Frame
import proofs.«132308_j19078244729525_1_alg».proof.Proof.Payload
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem Cert.Sage
open Idealize.ShloMosaic.Pipeline (Dat)

variable (V : (c : Dev nD) → (b : Ref sig .tc) → Buf (Elt Ideal) ((c : Thread nD τ).loc b))

theorem origin2' : (![0, 0] : Fin 2 → Nat) = fun _ => 0 := funext fun a => by fin_cases a <;> rfl

/-- The node embeddings: the second layer, node by node and feature by feature. -/
def embed (A X : S100000x128.Idx → EReal) (WL WR : S128x64.Idx → EReal) (B : S1x64.Idx → EReal) :
    S100000x64.Idx → EReal :=
  fun i => layerAt A X WL WR (fun c => B (ix2 (0 : Fin 1) c)) (i 0) (i 1)

/-- A block's entry is the embedding of the node and feature it stands for, once each loaded block holds the rows and
    columns of the whole arrays that the entry reads. -/
theorem block_embed (x0 x1 : Vec Ideal S5000x128 .f32) (x2 x3 : Vec Ideal S128x64 .f32) (x4 : Vec Ideal S1x64 .f32)
    (A X : S100000x128.Idx → EReal) (WL WR : S128x64.Idx → EReal) (B : S1x64.Idx → EReal)
    (p : Fin 5000) (q : Fin 64) (i : S100000x64.Idx)
    (h0 : ∀ k : Fin 128, x0 (ix2 p k) = A (ix2 (i 0) k)) (h1 : ∀ k : Fin 128, x1 (ix2 p k) = X (ix2 (i 0) k))
    (h2 : ∀ k : Fin 128, x2 (ix2 k q) = WL (ix2 k (i 1))) (h3 : ∀ k : Fin 128, x3 (ix2 k q) = WR (ix2 k (i 1)))
    (h4 : x4 (ix2 (0 : Fin 1) q) = B (ix2 (0 : Fin 1) (i 1))) :
    k1_pay1 (F := Ideal) x0 x1 x2 x3 x4 (ix2 p q) = embed A X WL WR B i := by
  refine (pay1_apply x0 x1 x2 x3 x4 p q).trans ?_
  unfold embed
  exact layerAt_congr h0 h1 h2 h3 h4

/-- The block indices of the six windows at a grid point: the row-blocked ones move with the point, the weights and the
    bias stay at their one block. -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the embeddings of the arrays the region finds. -/
theorem flushed_embed (c : Dev nD) (t : Fin cfg1.N) :
    (dat1 V c).flushed 5 t = ((cfg1.win 5).blk t).view.read (Elt Ideal)
      (embed (V c main_v40) (V c main_v28) (V c main_v41) (V c main_v42) (V c main_v43)) := by
  show (cfg1.win 5).cut (grid1.coords t) ((dat1 V c).after 5 t) = _
  rw [after1_5]
  unfold out1_5
  rw [View.canon_unit_zero origin2']
  simp only [View.ld_unit_zero (S := S5000x128) origin2', View.ld_unit_zero (S := S128x64) origin2',
    View.ld_unit_zero (S := S1x64) origin2']
  obtain ⟨a00, a01, a10, a11, a20, a21, a30, a31, a40, a41, a50, a51⟩ := blockIdx1 t
  funext j
  obtain ⟨p, q, rfl⟩ : ∃ (p : Fin 5000) (q : Fin 64), j = ix2 p q := ⟨j 0, j 1, eq_ix2 j⟩
  refine block_embed (iblk1 V c 0 t) (iblk1 V c 1 t) (iblk1 V c 2 t) (iblk1 V c 3 t) (iblk1 V c 4 t)
    (V c main_v40) (V c main_v28) (V c main_v41) (V c main_v42) (V c main_v43) p q
    (((cfg1.win 5).blk t).view.emb (ix2 p q)) (fun k => ?_) (fun k => ?_) (fun k => ?_) (fun k => ?_) ?_
  · show V c main_v40 (((cfg1.win 0).blk t).view.emb (ix2 p k)) = V c main_v40 _
    refine congrArg (V c main_v40) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  · show V c main_v28 (((cfg1.win 1).blk t).view.emb (ix2 p k)) = V c main_v28 _
    refine congrArg (V c main_v28) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  · show V c main_v41 (((cfg1.win 2).blk t).view.emb (ix2 k q)) = V c main_v41 _
    refine congrArg (V c main_v41) (funext fun a => Fin.ext ?_)
    match a with
    | ⟨0, _⟩ => show win1_2.index t (0 : Fin 2) * 128 + 1 * k.val = k.val; omega
    | ⟨1, _⟩ => show win1_2.index t (1 : Fin 2) * 64 + 1 * q.val = win1_5.index t (1 : Fin 2) * 64 + 1 * q.val; omega
  · show V c main_v42 (((cfg1.win 3).blk t).view.emb (ix2 k q)) = V c main_v42 _
    refine congrArg (V c main_v42) (funext fun a => Fin.ext ?_)
    match a with
    | ⟨0, _⟩ => show win1_3.index t (0 : Fin 2) * 128 + 1 * k.val = k.val; omega
    | ⟨1, _⟩ => show win1_3.index t (1 : Fin 2) * 64 + 1 * q.val = win1_5.index t (1 : Fin 2) * 64 + 1 * q.val; omega
  · show V c main_v43 (((cfg1.win 4).blk t).view.emb (ix2 (0 : Fin 1) q)) = V c main_v43 _
    refine congrArg (V c main_v43) (funext fun a => Fin.ext ?_)
    match a with
    | ⟨0, _⟩ => show win1_4.index t (0 : Fin 2) * 1 + 1 * 0 = 0; omega
    | ⟨1, _⟩ => show win1_4.index t (1 : Fin 2) * 64 + 1 * q.val = win1_5.index t (1 : Fin 2) * 64 + 1 * q.val; omega

/-- The twenty row blocks tile the nodes, so the output array ends holding the embeddings. -/
theorem final_embed (c : Dev nD) :
    (dat1 V c).arrAt 5 cfg1.N = embed (V c main_v40) (V c main_v28) (V c main_v41) (V c main_v42) (V c main_v43) :=
  (dat1 V c).arrAt_eq_of_cover 5 _ (fun t _ => flushed_embed V c t) fun i => by
    have hN : grid1.N = 20 := N_1
    have hi0 : (i 0).val < 100000 := (i 0).isLt
    have hi1 : (i 1).val < 64 := (i 1).isLt
    have ht : (i 0).val / 5000 < cfg1.N := by show _ < grid1.N; omega
    obtain ⟨-, -, -, -, -, -, -, -, -, -, a50, a51⟩ := blockIdx1 ⟨(i 0).val / 5000, ht⟩
    refine ⟨⟨(i 0).val / 5000, ht⟩, flush1_5 _, ?_⟩
    show i ∈ ((View.whole main_v44).slice (win1_5.rect ⟨(i 0).val / 5000, ht⟩)).set
    rw [View.set_slice_whole, Rect.mem_set_unit]
    intro a
    match a with
    | ⟨0, _⟩ =>
      show win1_5.index ⟨(i 0).val / 5000, ht⟩ (0 : Fin 2) * 5000 ≤ (i 0).val
        ∧ (i 0).val < win1_5.index ⟨(i 0).val / 5000, ht⟩ (0 : Fin 2) * 5000 + 5000
      rw [a50]; show (i 0).val / 5000 * 5000 ≤ (i 0).val ∧ (i 0).val < (i 0).val / 5000 * 5000 + 5000; omega
    | ⟨1, _⟩ =>
      show win1_5.index ⟨(i 0).val / 5000, ht⟩ (1 : Fin 2) * 64 ≤ (i 1).val
        ∧ (i 1).val < win1_5.index ⟨(i 0).val / 5000, ht⟩ (1 : Fin 2) * 64 + 64
      rw [a51]; omega

end Cert.KernelIdeal.Hand

end
-- ==== Proof.BridgeLayers.lean ====
/-
  The reference's two layers are the layer formula.

  The reference computes a layer as two host matrix products added, plus the bias broadcast over the nodes (and, for the
  first layer, the maximum with a zero array); each host product at an entry is the sum over the contracted coordinate,
  so the layer at an entry is the layer formula of its operands. The bias reaches the kernel as a one-row array; read at
  an entry that row is the plain bias vector.
-/
import proofs.«132308_j19078244729525_1_alg».proof.Proof.RegionHidden
import proofs.«132308_j19078244729525_1_alg».proof.Proof.RegionEmbed
import proofs.«132308_j19078244729525_1_alg».proof.Proof.Gen.ReferenceIdeal.Read
import Idealize.ShloMosaic.Lib.ValueLayout

set_option maxRecDepth 16384

noncomputable section

namespace Cert.KernelIdeal.Hand

open Idealize.ShloMosaic Idealize.ShloMosaic.ValueIdx Cert.Sage Cert.ReferenceIdeal.Read

/-- The reference's hidden features (two products added, the bias broadcast, the maximum with zero) are the hidden
    features of the averaged features, the node features, the transposed weights and the bias as one row. -/
theorem hidden_ref (x0 : (⟨Cert.ReferenceIdeal.S100000x64, .f32⟩ : BufTy).Contents (Elt Ideal))
    (x1 x2 : (⟨Cert.ReferenceIdeal.S128x64, .f32⟩ : BufTy).Contents (Elt Ideal))
    (x3 : (⟨Cert.ReferenceIdeal.S128, .f32⟩ : BufTy).Contents (Elt Ideal))
    (x7 : (⟨Cert.ReferenceIdeal.S2x1600000, .i32⟩ : BufTy).Contents (Elt Ideal))
    (h : (⟨1, ![128]⟩ : Shape).ShapeCasts ⟨2, ![1, 128]⟩) :
    hidden (val_main_v24 (F := Ideal) x0 x7) x0 (val_main_v25 (F := Ideal) x1) (val_main_v27 (F := Ideal) x2)
        (shapeCast ⟨2, ![1, 128]⟩ x3 h)
      = val_main_v33 (F := Ideal) x0 x1 x2 x3 x7 := by
  funext i
  rw [val_main_v33_apply, val_main_v32_apply, val_main_v29_apply, val_main_v26_apply, val_main_v28_apply,
    val_main_v31_apply, val_main_v30_apply, val_main_call0_v0_apply, val_main_call0_cst_apply]
  generalize val_main_v24 (F := Ideal) x0 x7 = A
  generalize val_main_v25 (F := Ideal) x1 = WL
  generalize val_main_v27 (F := Ideal) x2 = WR
  unfold hidden layerAt
  have e1 : ∀ k, lidx_main_v26 i k = ix2 (i 0) k := fun k => funext fun a => by
    match a with | ⟨0, _⟩ => rfl | ⟨1, _⟩ => rfl
  have e2 : ∀ k, ridx_main_v26 i k = ix2 k (i 1) := fun k => funext fun a => by
    match a with | ⟨0, _⟩ => rfl | ⟨1, _⟩ => rfl
  have e3 : ∀ k, lidx_main_v28 i k = ix2 (i 0) k := fun k => funext fun a => by
    match a with | ⟨0, _⟩ => rfl | ⟨1, _⟩ => rfl
  have e4 : ∀ k, ridx_main_v28 i k = ix2 k (i 1) := fun k => funext fun a => by
    match a with | ⟨0, _⟩ => rfl | ⟨1, _⟩ => rfl
  have e5 : idx_main_v30 (idx_main_v31 i) = ix1 (i 1) := funext fun a => by
    match a with | ⟨0, _⟩ => rfl
  simp only [e1, e2, e3, e4, e5]
  exact congrArg (fun t => max (_ + t) _) (shapeCast_a_1a_apply x3 h 0 (i 1))

/-- The reference's embeddings (two products added, the bias broadcast) are the embeddings of the averaged hidden
    features, the hidden features, the transposed weights and the bias as one row. -/
theorem embed_ref (x0 : (⟨Cert.ReferenceIdeal.S100000x64, .f32⟩ : BufTy).Contents (Elt Ideal))
    (x1 x2 : (⟨Cert.ReferenceIdeal.S128x64, .f32⟩ : BufTy).Contents (Elt Ideal))
    (x3 : (⟨Cert.ReferenceIdeal.S128, .f32⟩ : BufTy).Contents (Elt Ideal))
    (x4 x5 : (⟨Cert.ReferenceIdeal.S64x128, .f32⟩ : BufTy).Contents (Elt Ideal))
    (x6 : (⟨Cert.ReferenceIdeal.S64, .f32⟩ : BufTy).Contents (Elt Ideal))
    (x7 : (⟨Cert.ReferenceIdeal.S2x1600000, .i32⟩ : BufTy).Contents (Elt Ideal))
    (h : (⟨1, ![64]⟩ : Shape).ShapeCasts ⟨2, ![1, 64]⟩) :
    embed (val_main_v46 (F := Ideal) x0 x1 x2 x3 x7) (val_main_v33 (F := Ideal) x0 x1 x2 x3 x7)
        (val_main_v47 (F := Ideal) x4) (val_main_v49 (F := Ideal) x5) (shapeCast ⟨2, ![1, 64]⟩ x6 h)
      = val_main_v54 (F := Ideal) x0 x1 x2 x3 x4 x5 x6 x7 := by
  funext i
  rw [val_main_v54_apply, val_main_v51_apply, val_main_v48_apply, val_main_v50_apply,
    val_main_v53_apply, val_main_v52_apply]
  generalize val_main_v46 (F := Ideal) x0 x1 x2 x3 x7 = A
  generalize val_main_v33 (F := Ideal) x0 x1 x2 x3 x7 = X
  generalize val_main_v47 (F := Ideal) x4 = WL
  generalize val_main_v49 (F := Ideal) x5 = WR
  unfold embed layerAt
  have e1 : ∀ k, lidx_main_v48 i k = ix2 (i 0) k := fun k => funext fun a => by
    match a with | ⟨0, _⟩ => rfl | ⟨1, _⟩ => rfl
  have e2 : ∀ k, ridx_main_v48 i k = ix2 k (i 1) := fun k => funext fun a => by
    match a with | ⟨0, _⟩ => rfl | ⟨1, _⟩ => rfl
  have e3 : ∀ k, lidx_main_v50 i k = ix2 (i 0) k := fun k => funext fun a => by
    match a with | ⟨0, _⟩ => rfl | ⟨1, _⟩ => rfl
  have e4 : ∀ k, ridx_main_v50 i k = ix2 k (i 1) := fun k => funext fun a => by
    match a with | ⟨0, _⟩ => rfl | ⟨1, _⟩ => rfl
  have e5 : idx_main_v52 (idx_main_v53 i) = ix1 (i 1) := funext fun a => by
    match a with | ⟨0, _⟩ => rfl
  simp only [e1, e2, e3, e4, e5]
  exact congrArg (fun t => _ + t) (shapeCast_a_1a_apply x6 h 0 (i 1))

end Cert.KernelIdeal.Hand

end
-- ==== Proof.RegionScore.lean ====
/-
  The scoring grid region: the column it leaves, as one function of the two arrays it finds.

  The region visits twenty row blocks of 10000 candidate pairs. At block t it loads rows 10000·t … 10000·t + 9999 of the
  two gathered feature arrays and writes the same rows of a one-column output: the inner product of the pair's two
  feature rows. The score of a pair reads only that pair's rows, so every block is the restriction of one function of
  the whole arrays; the twenty blocks tile the 200000 pairs.
-/
import proofs.«132308_j19078244729525_1_alg».proof.Proof.Gen.KernelIdeal.Frame
import proofs.«132308_j19078244729525_1_alg».proof.Proof.Payload
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem Cert.Sage
open Idealize.ShloMosaic.Pipeline (Dat)

variable (V : (c : Dev nD) → (b : Ref sig .tc) → Buf (Elt Ideal) ((c : Thread nD τ).loc b))

theorem origin2'' : (![0, 0] : Fin 2 → Nat) = fun _ => 0 := funext fun a => by fin_cases a <;> rfl

/-- The pair scores kept as a column: the inner product of the pair's two feature rows. -/
def scores (Pf Qf : S200000x64.Idx → EReal) : S200000x1.Idx → EReal :=
  fun i => scoreAt Pf Qf (i 0)

/-- A block's entry is the score of the pair it stands for, once the two loaded blocks hold that pair's rows. -/
theorem block_scores (x0 x1 : Vec Ideal S10000x64 .f32) (Pf Qf : S200000x64.Idx → EReal)
    (p : Fin 10000) (u : Fin 1) (i : S200000x1.Idx)
    (h0 : ∀ k : Fin 64, x0 (ix2 p k) = Pf (ix2 (i 0) k)) (h1 : ∀ k : Fin 64, x1 (ix2 p k) = Qf (ix2 (i 0) k)) :
    k2_pay1 (F := Ideal) x0 x1 (ix2 p u) = scores Pf Qf i := by
  refine (pay2_apply x0 x1 p u).trans ?_
  unfold scores
  exact scoreAt_congr h0 h1

/-- The block indices of the three windows at a grid point: all three move with the point along the rows. -/
theorem blockIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the scores of the arrays the region finds. -/
theorem flushed_scores (c : Dev nD) (t : Fin cfg2.N) :
    (dat2 V c).flushed 2 t = ((cfg2.win 2).blk t).view.read (Elt Ideal) (scores (V c main_v53) (V c main_v62)) := by
  show (cfg2.win 2).cut (grid2.coords t) ((dat2 V c).after 2 t) = _
  rw [after2_2]
  unfold out2_2
  rw [View.canon_unit_zero origin2'']
  simp only [View.ld_unit_zero (S := S10000x64) origin2'']
  obtain ⟨a00, a01, a10, a11, a20, a21⟩ := blockIdx2 t
  funext j
  obtain ⟨p, u, rfl⟩ : ∃ (p : Fin 10000) (u : Fin 1), j = ix2 p u := ⟨j 0, j 1, eq_ix2 j⟩
  refine block_scores (iblk2 V c 0 t) (iblk2 V c 1 t) (V c main_v53) (V c main_v62) p u
    (((cfg2.win 2).blk t).view.emb (ix2 p u)) (fun k => ?_) (fun k => ?_)
  · show V c main_v53 (((cfg2.win 0).blk t).view.emb (ix2 p k)) = V c main_v53 _
    refine congrArg (V c main_v53) (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  · show V c main_v62 (((cfg2.win 1).blk t).view.emb (ix2 p k)) = V c main_v62 _
    refine congrArg (V c main_v62) (funext fun a => Fin.ext ?_)
    match a with
    | ⟨0, _⟩ => show win2_1.index t (0 : Fin 2) * 10000 + 1 * p.val = win2_2.index t (0 : Fin 2) * 10000 + 1 * p.val; omega
    | ⟨1, _⟩ => show win2_1.index t (1 : Fin 2) * 64 + 1 * k.val = k.val; omega

/-- The twenty row blocks tile the pairs, so the output column ends holding the scores. -/
theorem final_scores (c : Dev nD) :
    (dat2 V c).arrAt 2 cfg2.N = scores (V c main_v53) (V c main_v62) :=
  (dat2 V c).arrAt_eq_of_cover 2 _ (fun t _ => flushed_scores V c t) fun i => by
    have hN : grid2.N = 20 := N_2
    have hi0 : (i 0).val < 200000 := (i 0).isLt
    have hi1 : (i 1).val < 1 := (i 1).isLt
    have ht : (i 0).val / 10000 < cfg2.N := by show _ < grid2.N; omega
    obtain ⟨-, -, -, -, a20, a21⟩ := blockIdx2 ⟨(i 0).val / 10000, ht⟩
    refine ⟨⟨(i 0).val / 10000, ht⟩, flush2_2 _, ?_⟩
    show i ∈ ((View.whole main_v63).slice (win2_2.rect ⟨(i 0).val / 10000, ht⟩)).set
    rw [View.set_slice_whole, Rect.mem_set_unit]
    intro a
    match a with
    | ⟨0, _⟩ =>
      show win2_2.index ⟨(i 0).val / 10000, ht⟩ (0 : Fin 2) * 10000 ≤ (i 0).val
        ∧ (i 0).val < win2_2.index ⟨(i 0).val / 10000, ht⟩ (0 : Fin 2) * 10000 + 10000
      rw [a20]; show (i 0).val / 10000 * 10000 ≤ (i 0).val ∧ (i 0).val < (i 0).val / 10000 * 10000 + 10000; omega
    | ⟨1, _⟩ =>
      show win2_2.index ⟨(i 0).val / 10000, ht⟩ (1 : Fin 2) * 1 ≤ (i 1).val
        ∧ (i 1).val < win2_2.index ⟨(i 0).val / 10000, ht⟩ (1 : Fin 2) * 1 + 1
      rw [a21]; omega

end Cert.KernelIdeal.Hand

end
-- ==== Proof.BridgeScore.lean ====
/-
  The reference's result is the score column read as a vector.

  The reference's result is the row sum, started from zero, of the entrywise product of two gathered arrays: the pair
  score. The kernel leaves the scores as a one-column array and reshapes it to a vector; read at an entry, the vector is
  the column's entry.
-/
import proofs.«132308_j19078244729525_1_alg».proof.Proof.RegionScore
import proofs.«132308_j19078244729525_1_alg».proof.Proof.Gen.ReferenceIdeal.Read
import Idealize.ShloMosaic.Lib.ValueLayout

set_option maxRecDepth 16384

noncomputable section

namespace Idealize.ShloMosaic.ValueIdx

/-- A column `[a, 1]` cast to the vector `[a]` reads, at `i`, the column's entry `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx

namespace Cert.KernelIdeal.Hand

open Idealize.ShloMosaic Idealize.ShloMosaic.ValueIdx Cert.Sage Cert.ReferenceIdeal.Read

/-- A row sum started from a zero, of terms that are the entrywise products of two rows, is the pair score of the two
    arrays at that row. -/
theorem rowsum_scores (Pf Qf : (⟨2, ![200000, 64]⟩ : Shape).Idx → EReal) (r : Fin 200000) (z : EReal) (hz : z = 0)
    (f : Fin 64 → EReal) (hf : ∀ k, f k = Pf (ix2 r k) * Qf (ix2 r k)) :
    scoreAt Pf Qf r = z + ∑ k : Fin 64, f k := by
  rw [hz, zero_add]
  unfold scoreAt
  exact Finset.sum_congr rfl fun k _ => (hf k).symm

/-- The reference's result (the row sums, from zero, of the product of the two gathered arrays) is the score column
    read as a vector. -/
theorem scores_ref (x0 : (⟨Cert.ReferenceIdeal.S100000x64, .f32⟩ : BufTy).Contents (Elt Ideal))
    (x1 x2 : (⟨Cert.ReferenceIdeal.S128x64, .f32⟩ : BufTy).Contents (Elt Ideal))
    (x3 : (⟨Cert.ReferenceIdeal.S128, .f32⟩ : BufTy).Contents (Elt Ideal))
    (x4 x5 : (⟨Cert.ReferenceIdeal.S64x128, .f32⟩ : BufTy).Contents (Elt Ideal))
    (x6 : (⟨Cert.ReferenceIdeal.S64, .f32⟩ : BufTy).Contents (Elt Ideal))
    (x7 : (⟨Cert.ReferenceIdeal.S2x1600000, .i32⟩ : BufTy).Contents (Elt Ideal))
    (x8 : (⟨Cert.ReferenceIdeal.S2x200000, .i32⟩ : BufTy).Contents (Elt Ideal))
    (h : (⟨2, ![200000, 1]⟩ : Shape).ShapeCasts ⟨1, ![200000]⟩) :
    shapeCast ⟨1, ![200000]⟩ (scores (val_main_v63 (F := Ideal) x0 x1 x2 x3 x4 x5 x6 x7 x8)
        (val_main_v72 (F := Ideal) x0 x1 x2 x3 x4 x5 x6 x7 x8)) h
      = val_main_v74 (F := Ideal) x0 x1 x2 x3 x4 x5 x6 x7 x8 := by
  funext i
  obtain ⟨r, rfl⟩ : ∃ r : Fin 200000, i = ix1 r := ⟨i 0, eq_ix1 i⟩
  refine (shapeCast_a1_a_apply _ h r).trans ?_
  refine Eq.trans ?_ (val_main_v74_apply x0 x1 x2 x3 x4 x5 x6 x7 x8 (ix1 r)).symm
  unfold val_main_v73
  generalize val_main_v63 (F := Ideal) x0 x1 x2 x3 x4 x5 x6 x7 x8 = Pf
  generalize val_main_v72 (F := Ideal) x0 x1 x2 x3 x4 x5 x6 x7 x8 = Qf
  rw [val_main_cst_12_apply]
  have e1 : ∀ k, idx_main_v74 (ix1 r) k = ix2 r k := fun k => funext fun a => by
    match a with | ⟨0, _⟩ => rfl | ⟨1, _⟩ => rfl
  refine rowsum_scores Pf Qf r _ Ideal.ofBits_zero_f32 _ fun k => ?_
  rw [e1 k, mulf_apply]

end Cert.KernelIdeal.Hand

end
-- ==== Proof.Chain.lean ====
/-
  The kernel's result, read back through the seven segments to the launch arrays.

  Before each region a stretch of host operations builds the region's operands: the degree-normalised neighbour sums
  (a gather along the edge sources, a scatter-add along the edge targets, a product with the inverse degree), the
  transposed weights and the bias as one row; before the scoring region, the two gathers along the candidate pairs.
  These host operations are, one for one, the reference's own; so with each region's output array known as a function of
  the region's operands, every boundary's contents are the reference's stages of the launch arrays: the first region
  leaves the reference's hidden features, the second its embeddings, the third its scores as a column, and the last
  reshape reads the column as the result vector.
-/
import proofs.«132308_j19078244729525_1_alg».proof.Proof.ValueRun
import proofs.«132308_j19078244729525_1_alg».proof.Proof.BridgeLayers
import proofs.«132308_j19078244729525_1_alg».proof.Proof.BridgeScore

set_option maxRecDepth 16384

noncomputable section

namespace Cert.KernelIdeal.Hand

open Cert.KernelIdeal Cert.KernelIdeal.Gen Idealize.ShloMosaic Idealize.ShloMosaic.TcCoe Idealize.ShloMosaic.StableHlo
open Idealize.SL.Sem Cert.ReferenceIdeal.Read

variable (m : (ℓ : Loc nD τ sig) → Buf (Elt Ideal) ℓ) (ρ : Dev nD → PrngReg)

/-- The nine launch arrays of device `c`. -/
abbrev in0 (c : Dev nD) := m ((c.tc : Thread nD τ).loc main_arg0)
abbrev in1 (c : Dev nD) := m ((c.tc : Thread nD τ).loc main_arg1)
abbrev in2 (c : Dev nD) := m ((c.tc : Thread nD τ).loc main_arg2)
abbrev in3 (c : Dev nD) := m ((c.tc : Thread nD τ).loc main_arg3)
abbrev in4 (c : Dev nD) := m ((c.tc : Thread nD τ).loc main_arg4)
abbrev in5 (c : Dev nD) := m ((c.tc : Thread nD τ).loc main_arg5)
abbrev in6 (c : Dev nD) := m ((c.tc : Thread nD τ).loc main_arg6)
abbrev in7 (c : Dev nD) := m ((c.tc : Thread nD τ).loc main_arg7)
abbrev in8 (c : Dev nD) := m ((c.tc : Thread nD τ).loc main_arg8)

/-! ## After the first region: the hidden features -/

/-- The first region's output array ends at the reference's hidden features of the launch arrays. -/
theorem W2_v28 (c : Dev nD) : W2 m ρ c (Proc.devRef .tc main_v28)
    = val_main_v33 (F := Ideal) (in0 m c) (in1 m c) (in2 m c) (in3 m c) (in7 m c) := by
  refine (W2_arr m ρ c 5).trans ((final_hidden (V1 m ρ) c).trans ?_)
  have e24 : V1 m ρ c main_v24 = val_main_v24 (F := Ideal) (in0 m c) (in7 m c) := by
    show StableHlo.after hostOps0 (W0 m ρ c) (Proc.devRef .tc main_v24) = _
    after_results_simp <;> rfl
  have e0 : V1 m ρ c main_arg0 = in0 m c := by
    show StableHlo.after hostOps0 (W0 m ρ c) (Proc.devRef .tc main_arg0) = _
    after_results_simp <;> rfl
  have e25 : V1 m ρ c main_v25 = val_main_v25 (F := Ideal) (in1 m c) := by
    show StableHlo.after hostOps0 (W0 m ρ c) (Proc.devRef .tc main_v25) = _
    after_results_simp <;> rfl
  have e26 : V1 m ρ c main_v26 = val_main_v27 (F := Ideal) (in2 m c) := by
    show StableHlo.after hostOps0 (W0 m ρ c) (Proc.devRef .tc main_v26) = _
    after_results_simp <;> rfl
  have e27 : V1 m ρ c main_v27 = shapeCast ⟨2, ![1, 128]⟩ (in3 m c) Cert.KernelIdeal.Facts₀.shapeCasts_S128_S1x128 := by
    show StableHlo.after hostOps0 (W0 m ρ c) (Proc.devRef .tc main_v27) = _
    after_results_simp <;> rfl
  rw [e24, e0, e25, e26, e27]
  exact hidden_ref _ _ _ _ _ _

/-- A buffer the first region does not own, and that the first host stretch wrote, keeps the stretch's value: the edge
    sources as a vector. -/
theorem W2_v1 (c : Dev nD) : W2 m ρ c (Proc.devRef .tc main_v1) = val_main_v1 (F := Ideal) (in7 m c) :=
  (W2_of_ne m ρ c main_v1 (by decide)).trans (by
    show StableHlo.after hostOps0 (W0 m ρ c) (Proc.devRef .tc main_v1) = _
    after_results_simp <;> rfl)

/-- The edge targets as a vector. -/
theorem W2_v3 (c : Dev nD) : W2 m ρ c (Proc.devRef .tc main_v3) = val_main_v3 (F := Ideal) (in7 m c) :=
  (W2_of_ne m ρ c main_v3 (by decide)).trans (by
    show StableHlo.after hostOps0 (W0 m ρ c) (Proc.devRef .tc main_v3) = _
    after_results_simp <;> rfl)

/-- The inverse degrees as a column. -/
theorem W2_v12 (c : Dev nD) : W2 m ρ c (Proc.devRef .tc main_v12) = val_main_v22 (F := Ideal) (in7 m c) :=
  (W2_of_ne m ρ c main_v12 (by decide)).trans (by
    show StableHlo.after hostOps0 (W0 m ρ c) (Proc.devRef .tc main_v12) = _
    after_results_simp <;> rfl)

/-- A launch array the first stretch and the first region leave alone. -/
theorem W2_arg4 (c : Dev nD) : W2 m ρ c (Proc.devRef .tc main_arg4) = in4 m c :=
  (W2_of_ne m ρ c main_arg4 (by decide)).trans (by
    show StableHlo.after hostOps0 (W0 m ρ c) (Proc.devRef .tc main_arg4) = _
    after_results_simp <;> rfl)
theorem W2_arg5 (c : Dev nD) : W2 m ρ c (Proc.devRef .tc main_arg5) = in5 m c :=
  (W2_of_ne m ρ c main_arg5 (by decide)).trans (by
    show StableHlo.after hostOps0 (W0 m ρ c) (Proc.devRef .tc main_arg5) = _
    after_results_simp <;> rfl)
theorem W2_arg6 (c : Dev nD) : W2 m ρ c (Proc.devRef .tc main_arg6) = in6 m c :=
  (W2_of_ne m ρ c main_arg6 (by decide)).trans (by
    show StableHlo.after hostOps0 (W0 m ρ c) (Proc.devRef .tc main_arg6) = _
    after_results_simp <;> rfl)
theorem W2_arg8 (c : Dev nD) : W2 m ρ c (Proc.devRef .tc main_arg8) = in8 m c :=
  (W2_of_ne m ρ c main_arg8 (by decide)).trans (by
    show StableHlo.after hostOps0 (W0 m ρ c) (Proc.devRef .tc main_arg8) = _
    after_results_simp <;> rfl)

/-! ## After the second region: the embeddings -/

/-- The second region's output array ends at the reference's embeddings of the launch arrays. -/
theorem W4_v44 (c : Dev nD) : W4 m ρ c (Proc.devRef .tc main_v44)
    = val_main_v54 (F := Ideal) (in0 m c) (in1 m c) (in2 m c) (in3 m c) (in4 m c) (in5 m c) (in6 m c) (in7 m c) := by
  refine (W4_arr m ρ c 5).trans ((final_embed (V3 m ρ) c).trans ?_)
  have e28 : V3 m ρ c main_v28 = val_main_v33 (F := Ideal) (in0 m c) (in1 m c) (in2 m c) (in3 m c) (in7 m c) := by
    show StableHlo.after hostOps1 (W2 m ρ c) (Proc.devRef .tc main_v28) = _
    after_results_simp
    exact W2_v28 m ρ c
  have e40 : V3 m ρ c main_v40 = val_main_v46 (F := Ideal) (in0 m c) (in1 m c) (in2 m c) (in3 m c) (in7 m c) := by
    show StableHlo.after hostOps1 (W2 m ρ c) (Proc.devRef .tc main_v40) = _
    after_results_simp
    rw [W2_v28 m ρ c, W2_v1 m ρ c, W2_v3 m ρ c, W2_v12 m ρ c]
    rfl
  have e41 : V3 m ρ c main_v41 = val_main_v47 (F := Ideal) (in4 m c) := by
    show StableHlo.after hostOps1 (W2 m ρ c) (Proc.devRef .tc main_v41) = _
    after_results_simp
    rw [W2_arg4 m ρ c]
    rfl
  have e42 : V3 m ρ c main_v42 = val_main_v49 (F := Ideal) (in5 m c) := by
    show StableHlo.after hostOps1 (W2 m ρ c) (Proc.devRef .tc main_v42) = _
    after_results_simp
    rw [W2_arg5 m ρ c]
    rfl
  have e43 : V3 m ρ c main_v43 = shapeCast ⟨2, ![1, 64]⟩ (in6 m c) Cert.KernelIdeal.Facts₀.shapeCasts_S64_S1x64 := by
    show StableHlo.after hostOps1 (W2 m ρ c) (Proc.devRef .tc main_v43) = _
    after_results_simp
    rw [W2_arg6 m ρ c]
    rfl
  rw [e40, e28, e41, e42, e43]
  exact embed_ref _ _ _ _ _ _ _ _ _

/-- The candidate pairs, which nothing before the third stretch writes. -/
theorem W4_arg8 (c : Dev nD) : W4 m ρ c (Proc.devRef .tc main_arg8) = in8 m c :=
  (W4_of_ne m ρ c main_arg8 (by decide)).trans (by
    show StableHlo.after hostOps1 (W2 m ρ c) (Proc.devRef .tc main_arg8) = _
    after_results_simp
    exact W2_arg8 m ρ c)

/-! ## After the third region and the last reshape: the scores -/

/-- The third region's output column ends at the scores of the two gathered embedding arrays. -/
theorem W6_v63 (c : Dev nD) : W6 m ρ c (Proc.devRef .tc main_v63)
    = scores (val_main_v63 (F := Ideal) (in0 m c) (in1 m c) (in2 m c) (in3 m c) (in4 m c) (in5 m c) (in6 m c) (in7 m c) (in8 m c))
        (val_main_v72 (F := Ideal) (in0 m c) (in1 m c) (in2 m c) (in3 m c) (in4 m c) (in5 m c) (in6 m c) (in7 m c) (in8 m c)) := by
  refine (W6_arr m ρ c 2).trans ((final_scores (V5 m ρ) c).trans ?_)
  have e53 : V5 m ρ c main_v53 = val_main_v63 (F := Ideal) (in0 m c) (in1 m c) (in2 m c) (in3 m c) (in4 m c) (in5 m c) (in6 m c) (in7 m c) (in8 m c) := by
    show StableHlo.after hostOps2 (W4 m ρ c) (Proc.devRef .tc main_v53) = _
    after_results_simp
    rw [W4_v44 m ρ c, W4_arg8 m ρ c]
    rfl
  have e62 : V5 m ρ c main_v62 = val_main_v72 (F := Ideal) (in0 m c) (in1 m c) (in2 m c) (in3 m c) (in4 m c) (in5 m c) (in6 m c) (in7 m c) (in8 m c) := by
    show StableHlo.after hostOps2 (W4 m ρ c) (Proc.devRef .tc main_v62) = _
    after_results_simp
    rw [W4_v44 m ρ c, W4_arg8 m ρ c]
    rfl
  rw [e53, e62]

/-- The result buffer ends at the reference's result stage of the launch arrays. -/
theorem W7_v64 (c : Dev nD) : W7 m ρ c (Proc.devRef .tc main_v64)
    = val_main_v74 (F := Ideal) (in0 m c) (in1 m c) (in2 m c) (in3 m c) (in4 m c) (in5 m c) (in6 m c) (in7 m c) (in8 m c) := by
  show StableHlo.after hostOps3 (W6 m ρ c) (Proc.devRef .tc main_v64) = _
  after_results_simp
  rw [W6_v63 m ρ c]
  exact scores_ref _ _ _ _ _ _ _ _ _ _

/-! ## The run, read -/

/-- Every weakly fair execution of the idealized kernel terminates without a fault with its result at the reference's
    result stage of the launch arrays, and the argument arrays unchanged. -/
theorem run_value : θ_run defs (onTc (τ := τ) (main (F := Ideal))) ⟨m, fun _ => 0, ρ⟩ (fun r => ∀ c : Dev nD,
      r.2.mem ((c.tc : Thread nD τ).loc main_v64)
        = val_main_v74 (F := Ideal) (in0 m c) (in1 m c) (in2 m c) (in3 m c) (in4 m c) (in5 m c) (in6 m c) (in7 m c) (in8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (W7_v64 m ρ c), (h c).2⟩) (run_last m ρ)

end Cert.KernelIdeal.Hand

end
-- ==== Proof.lean ====
/-
  A two-layer neighbourhood-averaging network with a pairwise score: a tiled kernel against its reference, on the
  extended reals.

  For a graph on 100000 nodes given by 1600000 directed edges, a layer replaces each node's features by

      (average over its in-neighbours of their features) · WLᵀ + (its own features) · WRᵀ + b,

  the average being the sum over incoming edges divided by max(in-degree, 1). The first layer is followed by the
  maximum with zero. The result is, for each of 200000 candidate pairs of nodes, the inner product of the two nodes'
  second-layer features.

  Both programs build the averaged features with the same host operations (a gather along the edge sources, a
  scatter-add along the edge targets, a product with the inverse degree). The reference then takes host matrix products
  of the whole arrays; the kernel runs each layer as a grid of twenty row blocks of 5000 nodes, every block a matrix
  product accumulated from zero, and the score as a grid of twenty blocks of 10000 pairs, every block a row sum kept
  as a column. A host product and a product accumulated from zero are the same sum over the contracted coordinate, a
  layer at a node reads only that node's rows, and the blocks tile the nodes and the pairs: so each grid leaves the
  array the reference computes, and the two results are one function of the arguments. No cancellation or
  distributivity is used, so the inputs' finiteness plays no part beyond the frames.
-/
import proofs.«132308_j19078244729525_1_alg».proof.Defs
import proofs.«132308_j19078244729525_1_alg».proof.Proof.Gen.Kernel
import proofs.«132308_j19078244729525_1_alg».proof.Proof.Gen.Kernel.Skeleton
import proofs.«132308_j19078244729525_1_alg».proof.Proof.Gen.Kernel.Launch
import proofs.«132308_j19078244729525_1_alg».proof.Proof.Gen.Kernel.Points
import proofs.«132308_j19078244729525_1_alg».proof.Proof.Gen.Kernel.Frame
import proofs.«132308_j19078244729525_1_alg».proof.Proof.Gen.KernelIdeal
import proofs.«132308_j19078244729525_1_alg».proof.Proof.Gen.KernelIdeal.Skeleton
import proofs.«132308_j19078244729525_1_alg».proof.Proof.Gen.KernelIdeal.Launch
import proofs.«132308_j19078244729525_1_alg».proof.Proof.Gen.KernelIdeal.Points
import proofs.«132308_j19078244729525_1_alg».proof.Proof.Gen.KernelIdeal.Frame
import proofs.«132308_j19078244729525_1_alg».proof.Proof.Gen.ReferenceIdeal
import proofs.«132308_j19078244729525_1_alg».proof.Proof.Gen.ReferenceIdeal.Run
import proofs.«132308_j19078244729525_1_alg».proof.Proof.Gen.ReferenceIdeal.Read
import proofs.«132308_j19078244729525_1_alg».proof.Proof.Gen.Pre_finite_inputs
import proofs.«132308_j19078244729525_1_alg».proof.Proof.Chain
import Idealize.ShloMosaic.Adequacy
import Idealize.ShloMosaic.Init

noncomputable section

namespace Cert.Proof

open Idealize.ShloMosaic Idealize.SL.Sem

/-- The kernel as printed runs to the end without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the statement about its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From memories that agree on the arguments both programs end with the reference's result stage of those arguments:
    the kernel by the three grids read back to the launch arrays, the reference by its own run. -/
theorem algebraic : Cert.algebraic_KernelIdeal_ReferenceIdeal := by
  intro m ρ m' ρ' _ hagree
  refine ⟨fun c => Cert.ReferenceIdeal.Read.val_main_v74 (F := Ideal)
      (Cert.KernelIdeal.Hand.in0 m c) (Cert.KernelIdeal.Hand.in1 m c) (Cert.KernelIdeal.Hand.in2 m c)
      (Cert.KernelIdeal.Hand.in3 m c) (Cert.KernelIdeal.Hand.in4 m c) (Cert.KernelIdeal.Hand.in5 m c)
      (Cert.KernelIdeal.Hand.in6 m c) (Cert.KernelIdeal.Hand.in7 m c) (Cert.KernelIdeal.Hand.in8 m c),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq]
  obtain ⟨e0, e1, e2, e3, e4, e5, e6, e7, e8⟩ := hagree c
  rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
